-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel

variable [Facts]

def fn {F : FTy → Type} [FloatOps F] (main_arg0 : FVec F S256x3x224x224 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  main_v3
-- ==== Kernel.lean ====
abbrev S256x3x224x224 : Shape := ⟨4, ![256, 3, 224, 224]⟩
abbrev S8x3x224x224 : Shape := ⟨4, ![8, 3, 224, 224]⟩
abbrev S8x3x80x80 : Shape := ⟨4, ![8, 3, 80, 80]⟩
abbrev S8x3x16x16 : Shape := ⟨4, ![8, 3, 16, 16]⟩

abbrev nBuf : Space → Nat
  | .hbm => 2
  | .vmem => 4
  | .smem => 0
  | _ => 0

abbrev bufTy : (tb : Table) → Fin (tcTables nBuf tb) → BufTy
  | .hbm, ⟨0, _⟩ => ⟨S256x3x224x224, .f32⟩
  | .hbm, ⟨1, _⟩ => ⟨S256x3x224x224, .f32⟩
  | .local _ .vmem, ⟨0, _⟩ => ⟨S8x3x224x224, .f32⟩
  | .local _ .vmem, ⟨1, _⟩ => ⟨S8x3x224x224, .f32⟩
  | .local _ .vmem, ⟨2, _⟩ => ⟨S8x3x224x224, .f32⟩
  | .local _ .vmem, ⟨3, _⟩ => ⟨S8x3x224x224, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x3x224x224_S8x3x80x80_0_0_80_80 : ∀ a, (![0, 0, 80, 80] : Fin 4 → Nat) a + S8x3x80x80.size a ≤ S8x3x224x224.size a
  h_S8x3x80x80 : 0 < S8x3x80x80.numel
  inb_S8x3x224x224_S8x3x16x16_0_0_0_0 : ∀ a, (![0, 0, 0, 0] : Fin 4 → Nat) a + S8x3x16x16.size a ≤ S8x3x224x224.size a
  h_S8x3x16x16 : 0 < S8x3x16x16.numel
  transposes_S8x3x16x16_p0_1_3_2_S8x3x16x16 : S8x3x16x16.Transposes [0, 1, 3, 2] S8x3x16x16
  inb_S8x3x224x224_S8x3x16x16_0_0_0_16 : ∀ a, (![0, 0, 0, 16] : Fin 4 → Nat) a + S8x3x16x16.size a ≤ S8x3x224x224.size a
  inb_S8x3x224x224_S8x3x16x16_0_0_0_32 : ∀ a, (![0, 0, 0, 32] : Fin 4 → Nat) a + S8x3x16x16.size a ≤ S8x3x224x224.size a
  inb_S8x3x224x224_S8x3x16x16_0_0_0_48 : ∀ a, (![0, 0, 0, 48] : Fin 4 → Nat) a + S8x3x16x16.size a ≤ S8x3x224x224.size a
  inb_S8x3x224x224_S8x3x16x16_0_0_0_64 : ∀ a, (![0, 0, 0, 64] : Fin 4 → Nat) a + S8x3x16x16.size a ≤ S8x3x224x224.size a
  inb_S8x3x224x224_S8x3x16x16_0_0_0_80 : ∀ a, (![0, 0, 0, 80] : Fin 4 → Nat) a + S8x3x16x16.size a ≤ S8x3x224x224.size a
  inb_S8x3x224x224_S8x3x16x16_0_0_0_96 : ∀ a, (![0, 0, 0, 96] : Fin 4 → Nat) a + S8x3x16x16.size a ≤ S8x3x224x224.size a
  inb_S8x3x224x224_S8x3x16x16_0_0_0_112 : ∀ a, (![0, 0, 0, 112] : Fin 4 → Nat) a + S8x3x16x16.size a ≤ S8x3x224x224.size a
  inb_S8x3x224x224_S8x3x16x16_0_0_0_128 : ∀ a, (![0, 0, 0, 128] : Fin 4 → Nat) a + S8x3x16x16.size a ≤ S8x3x224x224.size a
  inb_S8x3x224x224_S8x3x16x16_0_0_0_144 : ∀ a, (![0, 0, 0, 144] : Fin 4 → Nat) a + S8x3x16x16.size a ≤ S8x3x224x224.size a
  inb_S8x3x224x224_S8x3x16x16_0_0_0_160 : ∀ a, (![0, 0, 0, 160] : Fin 4 → Nat) a + S8x3x16x16.size a ≤ S8x3x224x224.size a
  inb_S8x3x224x224_S8x3x16x16_0_0_0_176 : ∀ a, (![0, 0, 0, 176] : Fin 4 → Nat) a + S8x3x16x16.size a ≤ S8x3x224x224.size a
  inb_S8x3x224x224_S8x3x16x16_0_0_0_192 : ∀ a, (![0, 0, 0, 192] : Fin 4 → Nat) a + S8x3x16x16.size a ≤ S8x3x224x224.size a
  inb_S8x3x224x224_S8x3x16x16_0_0_0_208 : ∀ a, (![0, 0, 0, 208] : Fin 4 → Nat) a + S8x3x16x16.size a ≤ S8x3x224x224.size a
  inb_S8x3x224x224_S8x3x16x16_0_0_16_0 : ∀ a, (![0, 0, 16, 0] : Fin 4 → Nat) a + S8x3x16x16.size a ≤ S8x3x224x224.size a
  inb_S8x3x224x224_S8x3x16x16_0_0_16_16 : ∀ a, (![0, 0, 16, 16] : Fin 4 → Nat) a + S8x3x16x16.size a ≤ S8x3x224x224.size a
  inb_S8x3x224x224_S8x3x16x16_0_0_16_32 : ∀ a, (![0, 0, 16, 32] : Fin 4 → Nat) a + S8x3x16x16.size a ≤ S8x3x224x224.size a
  inb_S8x3x224x224_S8x3x16x16_0_0_16_48 : ∀ a, (![0, 0, 16, 48] : Fin 4 → Nat) a + S8x3x16x16.size a ≤ S8x3x224x224.size a
  inb_S8x3x224x224_S8x3x16x16_0_0_16_64 : ∀ a, (![0, 0, 16, 64] : Fin 4 → Nat) a + S8x3x16x16.size a ≤ S8x3x224x224.size a
  inb_S8x3x224x224_S8x3x16x16_0_0_16_80 : ∀ a, (![0, 0, 16, 80] : Fin 4 → Nat) a + S8x3x16x16.size a ≤ S8x3x224x224.size a
  inb_S8x3x224x224_S8x3x16x16_0_0_16_96 : ∀ a, (![0, 0, 16, 96] : Fin 4 → Nat) a + S8x3x16x16.size a ≤ S8x3x224x224.size a
  inb_S8x3x224x224_S8x3x16x16_0_0_16_112 : ∀ a, (![0, 0, 16, 112] : Fin 4 → Nat) a + S8x3x16x16.size a ≤ S8x3x224x224.size a
  inb_S8x3x224x224_S8x3x16x16_0_0_16_128 : ∀ a, (![0, 0, 16, 128] : Fin 4 → Nat) a + S8x3x16x16.size a ≤ S8x3x224x224.size a
  inb_S8x3x224x224_S8x3x16x16_0_0_16_144 : ∀ a, (![0, 0, 16, 144] : Fin 4 → Nat) a + S8x3x16x16.size a ≤ S8x3x224x224.size a
  inb_S8x3x224x224_S8x3x16x16_0_0_16_160 : ∀ a, (![0, 0, 16, 160] : Fin 4 → Nat) a + S8x3x16x16.size a ≤ S8x3x224x224.size a
  inb_S8x3x224x224_S8x3x16x16_0_0_16_176 : ∀ a, (![0, 0, 16, 176] : Fin 4 → Nat) a + S8x3x16x16.size a ≤ S8x3x224x224.size a
  inb_S8x3x224x224_S8x3x16x16_0_0_16_192 : ∀ a, (![0, 0, 16, 192] : Fin 4 → Nat) a + S8x3x16x16.size a ≤ S8x3x224x224.size a
  inb_S8x3x224x224_S8x3x16x16_0_0_16_208 : ∀ a, (![0, 0, 16, 208] : Fin 4 → Nat) a + S8x3x16x16.size a ≤ S8x3x224x224.size a
  inb_S8x3x224x224_S8x3x16x16_0_0_32_0 : ∀ a, (![0, 0, 32, 0] : Fin 4 → Nat) a + S8x3x16x16.size a ≤ S8x3x224x224.size a
  inb_S8x3x224x224_S8x3x16x16_0_0_32_16 : ∀ a, (![0, 0, 32, 16] : Fin 4 → Nat) a + S8x3x16x16.size a ≤ S8x3x224x224.size a
  inb_S8x3x224x224_S8x3x16x16_0_0_32_32 : ∀ a, (![0, 0, 32, 32] : Fin 4 → Nat) a + S8x3x16x16.size a ≤ S8x3x224x224.size a
  inb_S8x3x224x224_S8x3x16x16_0_0_32_48 : ∀ a, (![0, 0, 32, 48] : Fin 4 → Nat) a + S8x3x16x16.size a ≤ S8x3x224x224.size a
  inb_S8x3x224x224_S8x3x16x16_0_0_32_64 : ∀ a, (![0, 0, 32, 64] : Fin 4 → Nat) a + S8x3x16x16.size a ≤ S8x3x224x224.size a
  inb_S8x3x224x224_S8x3x16x16_0_0_32_80 : ∀ a, (![0, 0, 32, 80] : Fin 4 → Nat) a + S8x3x16x16.size a ≤ S8x3x224x224.size a
  inb_S8x3x224x224_S8x3x16x16_0_0_32_96 : ∀ a, (![0, 0, 32, 96] : Fin 4 → Nat) a + S8x3x16x16.size a ≤ S8x3x224x224.size a
  inb_S8x3x224x224_S8x3x16x16_0_0_32_112 : ∀ a, (![0, 0, 32, 112] : Fin 4 → Nat) a + S8x3x16x16.size a ≤ S8x3x224x224.size a
  inb_S8x3x224x224_S8x3x16x16_0_0_32_128 : ∀ a, (![0, 0, 32, 128] : Fin 4 → Nat) a + S8x3x16x16.size a ≤ S8x3x224x224.size a
  inb_S8x3x224x224_S8x3x16x16_0_0_32_144 : ∀ a, (![0, 0, 32, 144] : Fin 4 → Nat) a + S8x3x16x16.size a ≤ S8x3x224x224.size a
  inb_S8x3x224x224_S8x3x16x16_0_0_32_160 : ∀ a, (![0, 0, 32, 160] : Fin 4 → Nat) a + S8x3x16x16.size a ≤ S8x3x224x224.size a
  inb_S8x3x224x224_S8x3x16x16_0_0_32_176 : ∀ a, (![0, 0, 32, 176] : Fin 4 → Nat) a + S8x3x16x16.size a ≤ S8x3x224x224.size a
  inb_S8x3x224x224_S8x3x16x16_0_0_32_192 : ∀ a, (![0, 0, 32, 192] : Fin 4 → Nat) a + S8x3x16x16.size a ≤ S8x3x224x224.size a
  inb_S8x3x224x224_S8x3x16x16_0_0_32_208 : ∀ a, (![0, 0, 32, 208] : Fin 4 → Nat) a + S8x3x16x16.size a ≤ S8x3x224x224.size a
  inb_S8x3x224x224_S8x3x16x16_0_0_48_0 : ∀ a, (![0, 0, 48, 0] : Fin 4 → Nat) a + S8x3x16x16.size a ≤ S8x3x224x224.size a
  inb_S8x3x224x224_S8x3x16x16_0_0_48_16 : ∀ a, (![0, 0, 48, 16] : Fin 4 → Nat) a + S8x3x16x16.size a ≤ S8x3x224x224.size a
  inb_S8x3x224x224_S8x3x16x16_0_0_48_32 : ∀ a, (![0, 0, 48, 32] : Fin 4 → Nat) a + S8x3x16x16.size a ≤ S8x3x224x224.size a
  inb_S8x3x224x224_S8x3x16x16_0_0_48_48 : ∀ a, (![0, 0, 48, 48] : Fin 4 → Nat) a + S8x3x16x16.size a ≤ S8x3x224x224.size a
  inb_S8x3x224x224_S8x3x16x16_0_0_48_64 : ∀ a, (![0, 0, 48, 64] : Fin 4 → Nat) a + S8x3x16x16.size a ≤ S8x3x224x224.size a
  inb_S8x3x224x224_S8x3x16x16_0_0_48_80 : ∀ a, (![0, 0, 48, 80] : Fin 4 → Nat) a + S8x3x16x16.size a ≤ S8x3x224x224.size a
  inb_S8x3x224x224_S8x3x16x16_0_0_48_96 : ∀ a, (![0, 0, 48, 96] : Fin 4 → Nat) a + S8x3x16x16.size a ≤ S8x3x224x224.size a
  inb_S8x3x224x224_S8x3x16x16_0_0_48_112 : ∀ a, (![0, 0, 48, 112] : Fin 4 → Nat) a + S8x3x16x16.size a ≤ S8x3x224x224.size a
  inb_S8x3x224x224_S8x3x16x16_0_0_48_128 : ∀ a, (![0, 0, 48, 128] : Fin 4 → Nat) a + S8x3x16x16.size a ≤ S8x3x224x224.size a
  inb_S8x3x224x224_S8x3x16x16_0_0_48_144 : ∀ a, (![0, 0, 48, 144] : Fin 4 → Nat) a + S8x3x16x16.size a ≤ S8x3x224x224.size a
  inb_S8x3x224x224_S8x3x16x16_0_0_48_160 : ∀ a, (![0, 0, 48, 160] : Fin 4 → Nat) a + S8x3x16x16.size a ≤ S8x3x224x224.size a
  inb_S8x3x224x224_S8x3x16x16_0_0_48_176 : ∀ a, (![0, 0, 48, 176] : Fin 4 → Nat) a + S8x3x16x16.size a ≤ S8x3x224x224.size a
  inb_S8x3x224x224_S8x3x16x16_0_0_48_192 : ∀ a, (![0, 0, 48, 192] : Fin 4 → Nat) a + S8x3x16x16.size a ≤ S8x3x224x224.size a
  inb_S8x3x224x224_S8x3x16x16_0_0_48_208 : ∀ a, (![0, 0, 48, 208] : Fin 4 → Nat) a + S8x3x16x16.size a ≤ S8x3x224x224.size a
  inb_S8x3x224x224_S8x3x16x16_0_0_64_0 : ∀ a, (![0, 0, 64, 0] : Fin 4 → Nat) a + S8x3x16x16.size a ≤ S8x3x224x224.size a
  inb_S8x3x224x224_S8x3x16x16_0_0_64_16 : ∀ a, (![0, 0, 64, 16] : Fin 4 → Nat) a + S8x3x16x16.size a ≤ S8x3x224x224.size a
  inb_S8x3x224x224_S8x3x16x16_0_0_64_32 : ∀ a, (![0, 0, 64, 32] : Fin 4 → Nat) a + S8x3x16x16.size a ≤ S8x3x224x224.size a
  inb_S8x3x224x224_S8x3x16x16_0_0_64_48 : ∀ a, (![0, 0, 64, 48] : Fin 4 → Nat) a + S8x3x16x16.size a ≤ S8x3x224x224.size a
  inb_S8x3x224x224_S8x3x16x16_0_0_64_64 : ∀ a, (![0, 0, 64, 64] : Fin 4 → Nat) a + S8x3x16x16.size a ≤ S8x3x224x224.size a
  inb_S8x3x224x224_S8x3x16x16_0_0_64_80 : ∀ a, (![0, 0, 64, 80] : Fin 4 → Nat) a + S8x3x16x16.size a ≤ S8x3x224x224.size a
  inb_S8x3x224x224_S8x3x16x16_0_0_64_96 : ∀ a, (![0, 0, 64, 96] : Fin 4 → Nat) a + S8x3x16x16.size a ≤ S8x3x224x224.size a
  inb_S8x3x224x224_S8x3x16x16_0_0_64_112 : ∀ a, (![0, 0, 64, 112] : Fin 4 → Nat) a + S8x3x16x16.size a ≤ S8x3x224x224.size a
  inb_S8x3x224x224_S8x3x16x16_0_0_64_128 : ∀ a, (![0, 0, 64, 128] : Fin 4 → Nat) a + S8x3x16x16.size a ≤ S8x3x224x224.size a
  inb_S8x3x224x224_S8x3x16x16_0_0_64_144 : ∀ a, (![0, 0, 64, 144] : Fin 4 → Nat) a + S8x3x16x16.size a ≤ S8x3x224x224.size a
  inb_S8x3x224x224_S8x3x16x16_0_0_64_160 : ∀ a, (![0, 0, 64, 160] : Fin 4 → Nat) a + S8x3x16x16.size a ≤ S8x3x224x224.size a
  inb_S8x3x224x224_S8x3x16x16_0_0_64_176 : ∀ a, (![0, 0, 64, 176] : Fin 4 → Nat) a + S8x3x16x16.size a ≤ S8x3x224x224.size a
  inb_S8x3x224x224_S8x3x16x16_0_0_64_192 : ∀ a, (![0, 0, 64, 192] : Fin 4 → Nat) a + S8x3x16x16.size a ≤ S8x3x224x224.size a
  inb_S8x3x224x224_S8x3x16x16_0_0_64_208 : ∀ a, (![0, 0, 64, 208] : Fin 4 → Nat) a + S8x3x16x16.size a ≤ S8x3x224x224.size a
  inb_S8x3x224x224_S8x3x16x16_0_0_80_0 : ∀ a, (![0, 0, 80, 0] : Fin 4 → Nat) a + S8x3x16x16.size a ≤ S8x3x224x224.size a
  inb_S8x3x224x224_S8x3x16x16_0_0_80_16 : ∀ a, (![0, 0, 80, 16] : Fin 4 → Nat) a + S8x3x16x16.size a ≤ S8x3x224x224.size a
  inb_S8x3x224x224_S8x3x16x16_0_0_80_32 : ∀ a, (![0, 0, 80, 32] : Fin 4 → Nat) a + S8x3x16x16.size a ≤ S8x3x224x224.size a
  inb_S8x3x224x224_S8x3x16x16_0_0_80_48 : ∀ a, (![0, 0, 80, 48] : Fin 4 → Nat) a + S8x3x16x16.size a ≤ S8x3x224x224.size a
  inb_S8x3x224x224_S8x3x16x16_0_0_80_64 : ∀ a, (![0, 0, 80, 64] : Fin 4 → Nat) a + S8x3x16x16.size a ≤ S8x3x224x224.size a
  inb_S8x3x224x224_S8x3x16x16_0_0_80_160 : ∀ a, (![0, 0, 80, 160] : Fin 4 → Nat) a + S8x3x16x16.size a ≤ S8x3x224x224.size a
  inb_S8x3x224x224_S8x3x16x16_0_0_80_176 : ∀ a, (![0, 0, 80, 176] : Fin 4 → Nat) a + S8x3x16x16.size a ≤ S8x3x224x224.size a
  inb_S8x3x224x224_S8x3x16x16_0_0_80_192 : ∀ a, (![0, 0, 80, 192] : Fin 4 → Nat) a + S8x3x16x16.size a ≤ S8x3x224x224.size a
  inb_S8x3x224x224_S8x3x16x16_0_0_80_208 : ∀ a, (![0, 0, 80, 208] : Fin 4 → Nat) a + S8x3x16x16.size a ≤ S8x3x224x224.size a
  inb_S8x3x224x224_S8x3x16x16_0_0_96_0 : ∀ a, (![0, 0, 96, 0] : Fin 4 → Nat) a + S8x3x16x16.size a ≤ S8x3x224x224.size a
  inb_S8x3x224x224_S8x3x16x16_0_0_96_16 : ∀ a, (![0, 0, 96, 16] : Fin 4 → Nat) a + S8x3x16x16.size a ≤ S8x3x224x224.size a
  inb_S8x3x224x224_S8x3x16x16_0_0_96_32 : ∀ a, (![0, 0, 96, 32] : Fin 4 → Nat) a + S8x3x16x16.size a ≤ S8x3x224x224.size a
  inb_S8x3x224x224_S8x3x16x16_0_0_96_48 : ∀ a, (![0, 0, 96, 48] : Fin 4 → Nat) a + S8x3x16x16.size a ≤ S8x3x224x224.size a
  inb_S8x3x224x224_S8x3x16x16_0_0_96_64 : ∀ a, (![0, 0, 96, 64] : Fin 4 → Nat) a + S8x3x16x16.size a ≤ S8x3x224x224.size a
  inb_S8x3x224x224_S8x3x16x16_0_0_96_160 : ∀ a, (![0, 0, 96, 160] : Fin 4 → Nat) a + S8x3x16x16.size a ≤ S8x3x224x224.size a
  inb_S8x3x224x224_S8x3x16x16_0_0_96_176 : ∀ a, (![0, 0, 96, 176] : Fin 4 → Nat) a + S8x3x16x16.size a ≤ S8x3x224x224.size a
  inb_S8x3x224x224_S8x3x16x16_0_0_96_192 : ∀ a, (![0, 0, 96, 192] : Fin 4 → Nat) a + S8x3x16x16.size a ≤ S8x3x224x224.size a
  inb_S8x3x224x224_S8x3x16x16_0_0_96_208 : ∀ a, (![0, 0, 96, 208] : Fin 4 → Nat) a + S8x3x16x16.size a ≤ S8x3x224x224.size a
  inb_S8x3x224x224_S8x3x16x16_0_0_112_0 : ∀ a, (![0, 0, 112, 0] : Fin 4 → Nat) a + S8x3x16x16.size a ≤ S8x3x224x224.size a
  inb_S8x3x224x224_S8x3x16x16_0_0_112_16 : ∀ a, (![0, 0, 112, 16] : Fin 4 → Nat) a + S8x3x16x16.size a ≤ S8x3x224x224.size a
  inb_S8x3x224x224_S8x3x16x16_0_0_112_32 : ∀ a, (![0, 0, 112, 32] : Fin 4 → Nat) a + S8x3x16x16.size a ≤ S8x3x224x224.size a
  inb_S8x3x224x224_S8x3x16x16_0_0_112_48 : ∀ a, (![0, 0, 112, 48] : Fin 4 → Nat) a + S8x3x16x16.size a ≤ S8x3x224x224.size a
  inb_S8x3x224x224_S8x3x16x16_0_0_112_64 : ∀ a, (![0, 0, 112, 64] : Fin 4 → Nat) a + S8x3x16x16.size a ≤ S8x3x224x224.size a
  inb_S8x3x224x224_S8x3x16x16_0_0_112_160 : ∀ a, (![0, 0, 112, 160] : Fin 4 → Nat) a + S8x3x16x16.size a ≤ S8x3x224x224.size a
  inb_S8x3x224x224_S8x3x16x16_0_0_112_176 : ∀ a, (![0, 0, 112, 176] : Fin 4 → Nat) a + S8x3x16x16.size a ≤ S8x3x224x224.size a
  inb_S8x3x224x224_S8x3x16x16_0_0_112_192 : ∀ a, (![0, 0, 112, 192] : Fin 4 → Nat) a + S8x3x16x16.size a ≤ S8x3x224x224.size a
  inb_S8x3x224x224_S8x3x16x16_0_0_112_208 : ∀ a, (![0, 0, 112, 208] : Fin 4 → Nat) a + S8x3x16x16.size a ≤ S8x3x224x224.size a
  inb_S8x3x224x224_S8x3x16x16_0_0_128_0 : ∀ a, (![0, 0, 128, 0] : Fin 4 → Nat) a + S8x3x16x16.size a ≤ S8x3x224x224.size a
  inb_S8x3x224x224_S8x3x16x16_0_0_128_16 : ∀ a, (![0, 0, 128, 16] : Fin 4 → Nat) a + S8x3x16x16.size a ≤ S8x3x224x224.size a
  inb_S8x3x224x224_S8x3x16x16_0_0_128_32 : ∀ a, (![0, 0, 128, 32] : Fin 4 → Nat) a + S8x3x16x16.size a ≤ S8x3x224x224.size a
  inb_S8x3x224x224_S8x3x16x16_0_0_128_48 : ∀ a, (![0, 0, 128, 48] : Fin 4 → Nat) a + S8x3x16x16.size a ≤ S8x3x224x224.size a
  inb_S8x3x224x224_S8x3x16x16_0_0_128_64 : ∀ a, (![0, 0, 128, 64] : Fin 4 → Nat) a + S8x3x16x16.size a ≤ S8x3x224x224.size a
  inb_S8x3x224x224_S8x3x16x16_0_0_128_160 : ∀ a, (![0, 0, 128, 160] : Fin 4 → Nat) a + S8x3x16x16.size a ≤ S8x3x224x224.size a
  inb_S8x3x224x224_S8x3x16x16_0_0_128_176 : ∀ a, (![0, 0, 128, 176] : Fin 4 → Nat) a + S8x3x16x16.size a ≤ S8x3x224x224.size a
  inb_S8x3x224x224_S8x3x16x16_0_0_128_192 : ∀ a, (![0, 0, 128, 192] : Fin 4 → Nat) a + S8x3x16x16.size a ≤ S8x3x224x224.size a
  inb_S8x3x224x224_S8x3x16x16_0_0_128_208 : ∀ a, (![0, 0, 128, 208] : Fin 4 → Nat) a + S8x3x16x16.size a ≤ S8x3x224x224.size a
  inb_S8x3x224x224_S8x3x16x16_0_0_144_0 : ∀ a, (![0, 0, 144, 0] : Fin 4 → Nat) a + S8x3x16x16.size a ≤ S8x3x224x224.size a
  inb_S8x3x224x224_S8x3x16x16_0_0_144_16 : ∀ a, (![0, 0, 144, 16] : Fin 4 → Nat) a + S8x3x16x16.size a ≤ S8x3x224x224.size a
  inb_S8x3x224x224_S8x3x16x16_0_0_144_32 : ∀ a, (![0, 0, 144, 32] : Fin 4 → Nat) a + S8x3x16x16.size a ≤ S8x3x224x224.size a
  inb_S8x3x224x224_S8x3x16x16_0_0_144_48 : ∀ a, (![0, 0, 144, 48] : Fin 4 → Nat) a + S8x3x16x16.size a ≤ S8x3x224x224.size a
  inb_S8x3x224x224_S8x3x16x16_0_0_144_64 : ∀ a, (![0, 0, 144, 64] : Fin 4 → Nat) a + S8x3x16x16.size a ≤ S8x3x224x224.size a
  inb_S8x3x224x224_S8x3x16x16_0_0_144_160 : ∀ a, (![0, 0, 144, 160] : Fin 4 → Nat) a + S8x3x16x16.size a ≤ S8x3x224x224.size a
  inb_S8x3x224x224_S8x3x16x16_0_0_144_176 : ∀ a, (![0, 0, 144, 176] : Fin 4 → Nat) a + S8x3x16x16.size a ≤ S8x3x224x224.size a
  inb_S8x3x224x224_S8x3x16x16_0_0_144_192 : ∀ a, (![0, 0, 144, 192] : Fin 4 → Nat) a + S8x3x16x16.size a ≤ S8x3x224x224.size a
  inb_S8x3x224x224_S8x3x16x16_0_0_144_208 : ∀ a, (![0, 0, 144, 208] : Fin 4 → Nat) a + S8x3x16x16.size a ≤ S8x3x224x224.size a
  inb_S8x3x224x224_S8x3x16x16_0_0_160_0 : ∀ a, (![0, 0, 160, 0] : Fin 4 → Nat) a + S8x3x16x16.size a ≤ S8x3x224x224.size a
  inb_S8x3x224x224_S8x3x16x16_0_0_160_16 : ∀ a, (![0, 0, 160, 16] : Fin 4 → Nat) a + S8x3x16x16.size a ≤ S8x3x224x224.size a
  inb_S8x3x224x224_S8x3x16x16_0_0_160_32 : ∀ a, (![0, 0, 160, 32] : Fin 4 → Nat) a + S8x3x16x16.size a ≤ S8x3x224x224.size a
  inb_S8x3x224x224_S8x3x16x16_0_0_160_48 : ∀ a, (![0, 0, 160, 48] : Fin 4 → Nat) a + S8x3x16x16.size a ≤ S8x3x224x224.size a
  inb_S8x3x224x224_S8x3x16x16_0_0_160_64 : ∀ a, (![0, 0, 160, 64] : Fin 4 → Nat) a + S8x3x16x16.size a ≤ S8x3x224x224.size a
  inb_S8x3x224x224_S8x3x16x16_0_0_160_80 : ∀ a, (![0, 0, 160, 80] : Fin 4 → Nat) a + S8x3x16x16.size a ≤ S8x3x224x224.size a
  inb_S8x3x224x224_S8x3x16x16_0_0_160_96 : ∀ a, (![0, 0, 160, 96] : Fin 4 → Nat) a + S8x3x16x16.size a ≤ S8x3x224x224.size a
  inb_S8x3x224x224_S8x3x16x16_0_0_160_112 : ∀ a, (![0, 0, 160, 112] : Fin 4 → Nat) a + S8x3x16x16.size a ≤ S8x3x224x224.size a
  inb_S8x3x224x224_S8x3x16x16_0_0_160_128 : ∀ a, (![0, 0, 160, 128] : Fin 4 → Nat) a + S8x3x16x16.size a ≤ S8x3x224x224.size a
  inb_S8x3x224x224_S8x3x16x16_0_0_160_144 : ∀ a, (![0, 0, 160, 144] : Fin 4 → Nat) a + S8x3x16x16.size a ≤ S8x3x224x224.size a
  inb_S8x3x224x224_S8x3x16x16_0_0_160_160 : ∀ a, (![0, 0, 160, 160] : Fin 4 → Nat) a + S8x3x16x16.size a ≤ S8x3x224x224.size a
  inb_S8x3x224x224_S8x3x16x16_0_0_160_176 : ∀ a, (![0, 0, 160, 176] : Fin 4 → Nat) a + S8x3x16x16.size a ≤ S8x3x224x224.size a
  inb_S8x3x224x224_S8x3x16x16_0_0_160_192 : ∀ a, (![0, 0, 160, 192] : Fin 4 → Nat) a + S8x3x16x16.size a ≤ S8x3x224x224.size a
  inb_S8x3x224x224_S8x3x16x16_0_0_160_208 : ∀ a, (![0, 0, 160, 208] : Fin 4 → Nat) a + S8x3x16x16.size a ≤ S8x3x224x224.size a
  inb_S8x3x224x224_S8x3x16x16_0_0_176_0 : ∀ a, (![0, 0, 176, 0] : Fin 4 → Nat) a + S8x3x16x16.size a ≤ S8x3x224x224.size a
  inb_S8x3x224x224_S8x3x16x16_0_0_176_16 : ∀ a, (![0, 0, 176, 16] : Fin 4 → Nat) a + S8x3x16x16.size a ≤ S8x3x224x224.size a
  inb_S8x3x224x224_S8x3x16x16_0_0_176_32 : ∀ a, (![0, 0, 176, 32] : Fin 4 → Nat) a + S8x3x16x16.size a ≤ S8x3x224x224.size a
  inb_S8x3x224x224_S8x3x16x16_0_0_176_48 : ∀ a, (![0, 0, 176, 48] : Fin 4 → Nat) a + S8x3x16x16.size a ≤ S8x3x224x224.size a
  inb_S8x3x224x224_S8x3x16x16_0_0_176_64 : ∀ a, (![0, 0, 176, 64] : Fin 4 → Nat) a + S8x3x16x16.size a ≤ S8x3x224x224.size a
  inb_S8x3x224x224_S8x3x16x16_0_0_176_80 : ∀ a, (![0, 0, 176, 80] : Fin 4 → Nat) a + S8x3x16x16.size a ≤ S8x3x224x224.size a
  inb_S8x3x224x224_S8x3x16x16_0_0_176_96 : ∀ a, (![0, 0, 176, 96] : Fin 4 → Nat) a + S8x3x16x16.size a ≤ S8x3x224x224.size a
  inb_S8x3x224x224_S8x3x16x16_0_0_176_112 : ∀ a, (![0, 0, 176, 112] : Fin 4 → Nat) a + S8x3x16x16.size a ≤ S8x3x224x224.size a
  inb_S8x3x224x224_S8x3x16x16_0_0_176_128 : ∀ a, (![0, 0, 176, 128] : Fin 4 → Nat) a + S8x3x16x16.size a ≤ S8x3x224x224.size a
  inb_S8x3x224x224_S8x3x16x16_0_0_176_144 : ∀ a, (![0, 0, 176, 144] : Fin 4 → Nat) a + S8x3x16x16.size a ≤ S8x3x224x224.size a
  inb_S8x3x224x224_S8x3x16x16_0_0_176_160 : ∀ a, (![0, 0, 176, 160] : Fin 4 → Nat) a + S8x3x16x16.size a ≤ S8x3x224x224.size a
  inb_S8x3x224x224_S8x3x16x16_0_0_176_176 : ∀ a, (![0, 0, 176, 176] : Fin 4 → Nat) a + S8x3x16x16.size a ≤ S8x3x224x224.size a
  inb_S8x3x224x224_S8x3x16x16_0_0_176_192 : ∀ a, (![0, 0, 176, 192] : Fin 4 → Nat) a + S8x3x16x16.size a ≤ S8x3x224x224.size a
  inb_S8x3x224x224_S8x3x16x16_0_0_176_208 : ∀ a, (![0, 0, 176, 208] : Fin 4 → Nat) a + S8x3x16x16.size a ≤ S8x3x224x224.size a
  inb_S8x3x224x224_S8x3x16x16_0_0_192_0 : ∀ a, (![0, 0, 192, 0] : Fin 4 → Nat) a + S8x3x16x16.size a ≤ S8x3x224x224.size a
  inb_S8x3x224x224_S8x3x16x16_0_0_192_16 : ∀ a, (![0, 0, 192, 16] : Fin 4 → Nat) a + S8x3x16x16.size a ≤ S8x3x224x224.size a
  inb_S8x3x224x224_S8x3x16x16_0_0_192_32 : ∀ a, (![0, 0, 192, 32] : Fin 4 → Nat) a + S8x3x16x16.size a ≤ S8x3x224x224.size a
  inb_S8x3x224x224_S8x3x16x16_0_0_192_48 : ∀ a, (![0, 0, 192, 48] : Fin 4 → Nat) a + S8x3x16x16.size a ≤ S8x3x224x224.size a
  inb_S8x3x224x224_S8x3x16x16_0_0_192_64 : ∀ a, (![0, 0, 192, 64] : Fin 4 → Nat) a + S8x3x16x16.size a ≤ S8x3x224x224.size a
  inb_S8x3x224x224_S8x3x16x16_0_0_192_80 : ∀ a, (![0, 0, 192, 80] : Fin 4 → Nat) a + S8x3x16x16.size a ≤ S8x3x224x224.size a
  inb_S8x3x224x224_S8x3x16x16_0_0_192_96 : ∀ a, (![0, 0, 192, 96] : Fin 4 → Nat) a + S8x3x16x16.size a ≤ S8x3x224x224.size a
  inb_S8x3x224x224_S8x3x16x16_0_0_192_112 : ∀ a, (![0, 0, 192, 112] : Fin 4 → Nat) a + S8x3x16x16.size a ≤ S8x3x224x224.size a
  inb_S8x3x224x224_S8x3x16x16_0_0_192_128 : ∀ a, (![0, 0, 192, 128] : Fin 4 → Nat) a + S8x3x16x16.size a ≤ S8x3x224x224.size a
  inb_S8x3x224x224_S8x3x16x16_0_0_192_144 : ∀ a, (![0, 0, 192, 144] : Fin 4 → Nat) a + S8x3x16x16.size a ≤ S8x3x224x224.size a
  inb_S8x3x224x224_S8x3x16x16_0_0_192_160 : ∀ a, (![0, 0, 192, 160] : Fin 4 → Nat) a + S8x3x16x16.size a ≤ S8x3x224x224.size a
  inb_S8x3x224x224_S8x3x16x16_0_0_192_176 : ∀ a, (![0, 0, 192, 176] : Fin 4 → Nat) a + S8x3x16x16.size a ≤ S8x3x224x224.size a
  inb_S8x3x224x224_S8x3x16x16_0_0_192_192 : ∀ a, (![0, 0, 192, 192] : Fin 4 → Nat) a + S8x3x16x16.size a ≤ S8x3x224x224.size a
  inb_S8x3x224x224_S8x3x16x16_0_0_192_208 : ∀ a, (![0, 0, 192, 208] : Fin 4 → Nat) a + S8x3x16x16.size a ≤ S8x3x224x224.size a
  inb_S8x3x224x224_S8x3x16x16_0_0_208_0 : ∀ a, (![0, 0, 208, 0] : Fin 4 → Nat) a + S8x3x16x16.size a ≤ S8x3x224x224.size a
  inb_S8x3x224x224_S8x3x16x16_0_0_208_16 : ∀ a, (![0, 0, 208, 16] : Fin 4 → Nat) a + S8x3x16x16.size a ≤ S8x3x224x224.size a
  inb_S8x3x224x224_S8x3x16x16_0_0_208_32 : ∀ a, (![0, 0, 208, 32] : Fin 4 → Nat) a + S8x3x16x16.size a ≤ S8x3x224x224.size a
  inb_S8x3x224x224_S8x3x16x16_0_0_208_48 : ∀ a, (![0, 0, 208, 48] : Fin 4 → Nat) a + S8x3x16x16.size a ≤ S8x3x224x224.size a
  inb_S8x3x224x224_S8x3x16x16_0_0_208_64 : ∀ a, (![0, 0, 208, 64] : Fin 4 → Nat) a + S8x3x16x16.size a ≤ S8x3x224x224.size a
  inb_S8x3x224x224_S8x3x16x16_0_0_208_80 : ∀ a, (![0, 0, 208, 80] : Fin 4 → Nat) a + S8x3x16x16.size a ≤ S8x3x224x224.size a
  inb_S8x3x224x224_S8x3x16x16_0_0_208_96 : ∀ a, (![0, 0, 208, 96] : Fin 4 → Nat) a + S8x3x16x16.size a ≤ S8x3x224x224.size a
  inb_S8x3x224x224_S8x3x16x16_0_0_208_112 : ∀ a, (![0, 0, 208, 112] : Fin 4 → Nat) a + S8x3x16x16.size a ≤ S8x3x224x224.size a
  inb_S8x3x224x224_S8x3x16x16_0_0_208_128 : ∀ a, (![0, 0, 208, 128] : Fin 4 → Nat) a + S8x3x16x16.size a ≤ S8x3x224x224.size a
  inb_S8x3x224x224_S8x3x16x16_0_0_208_144 : ∀ a, (![0, 0, 208, 144] : Fin 4 → Nat) a + S8x3x16x16.size a ≤ S8x3x224x224.size a
  inb_S8x3x224x224_S8x3x16x16_0_0_208_160 : ∀ a, (![0, 0, 208, 160] : Fin 4 → Nat) a + S8x3x16x16.size a ≤ S8x3x224x224.size a
  inb_S8x3x224x224_S8x3x16x16_0_0_208_176 : ∀ a, (![0, 0, 208, 176] : Fin 4 → Nat) a + S8x3x16x16.size a ≤ S8x3x224x224.size a
  inb_S8x3x224x224_S8x3x16x16_0_0_208_192 : ∀ a, (![0, 0, 208, 192] : Fin 4 → Nat) a + S8x3x16x16.size a ≤ S8x3x224x224.size a
  inb_S8x3x224x224_S8x3x16x16_0_0_208_208 : ∀ a, (![0, 0, 208, 208] : Fin 4 → Nat) a + S8x3x16x16.size a ≤ S8x3x224x224.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x224x224.size a ≤ S256x3x224x224.size a
  hwx0_0 : ∀ i : grid0.Coords, EltTy.bits .f32 = 32 ∨ (Rect.block (s := S256x3x224x224) S8x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x224x224.size a ≤ S256x3x224x224.size a
  hwx0_1 : ∀ i : grid0.Coords, EltTy.bits .f32 = 32 ∨ (Rect.block (s := S256x3x224x224) S8x3x224x224.size (cc0_transform_1 i) (hinb0_1 i)).WholeWords (EltTy.packing .f32)

variable [Facts₀]

abbrev win0_0 : Pipeline.Window sig grid0 :=
  Pipeline.Window.ofSpec (Memref.whole main_arg0) S8x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x3x224x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S14x14 : Shape := ⟨2, ![14, 14]⟩
abbrev S256x3x14x16x14x16 : Shape := ⟨6, ![256, 3, 14, 16, 14, 16]⟩
abbrev S256x14x14x16x16x3 : Shape := ⟨6, ![256, 14, 14, 16, 16, 3]⟩
abbrev S1x14x14x1x1x1 : Shape := ⟨6, ![1, 14, 14, 1, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S14x14, .i1⟩
  | .hbm, ⟨2, _⟩ => ⟨S256x3x14x16x14x16, .f32⟩
  | .hbm, ⟨3, _⟩ => ⟨S256x14x14x16x16x3, .f32⟩
  | .hbm, ⟨4, _⟩ => ⟨S256x14x14x16x16x3, .f32⟩
  | .hbm, ⟨5, _⟩ => ⟨S1x14x14x1x1x1, .i1⟩
  | .hbm, ⟨6, _⟩ => ⟨S256x14x14x16x16x3, .i1⟩
  | .hbm, ⟨7, _⟩ => ⟨S256x14x14x16x16x3, .f32⟩
  | .hbm, ⟨8, _⟩ => ⟨S256x3x14x16x14x16, .f32⟩
  | .hbm, ⟨9, _⟩ => ⟨S256x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S256x3x224x224_S256x3x14x16x14x16 : S256x3x224x224.ShapeCasts S256x3x14x16x14x16
  transposes_S256x3x14x16x14x16_S256x14x14x16x16x3_0_4_2_3_5_1 : S256x3x14x16x14x16.Transposes [0, 4, 2, 3, 5, 1] S256x14x14x16x16x3
  transposes_S256x14x14x16x16x3_S256x14x14x16x16x3_0_1_2_4_3_5 : S256x14x14x16x16x3.Transposes [0, 1, 2, 4, 3, 5] S256x14x14x16x16x3
  bcast_S14x14_S1x14x14x1x1x1_1_2 : S14x14.BroadcastsInDim S1x14x14x1x1x1 (![1, 2] : Fin 2 → Fin S1x14x14x1x1x1.rank)
  bcast_S1x14x14x1x1x1_S256x14x14x16x16x3_0_1_2_3_4_5 : S1x14x14x1x1x1.BroadcastsInDim S256x14x14x16x16x3 (![0, 1, 2, 3, 4, 5] : Fin 6 → Fin S256x14x14x16x16x3.rank)
  transposes_S256x14x14x16x16x3_S256x3x14x16x14x16_0_5_2_3_1_4 : S256x14x14x16x16x3.Transposes [0, 5, 2, 3, 1, 4] S256x3x14x16x14x16
  shapeCasts_S256x3x14x16x14x16_S256x3x224x224 : S256x3x14x16x14x16.ShapeCasts S256x3x224x224

variable [Facts₀]

class Facts : Prop extends Facts₀ where

variable [Facts]
-- ==== Proof.Spec.lean ====
/-
  The specification of the patch rotation, free of both programs.

  A 224 x 224 image plane is cut into 14 x 14 patches of 16 x 16 pixels. The patches whose row index AND column
  index both lie strictly inside the middle third of the patch grid (indices 5 to 9: the pixel square
  [80, 160) x [80, 160)) are kept as they are; every other patch is transposed in place: its pixel (i, j) is
  the input patch's pixel (j, i). Batch and channel coordinates are untouched. So the result is ONE gather of
  the input: output pixel (r, s) of a plane is input pixel (srcRow r s, srcCol r s) of the same plane, and no
  arithmetic is done on any element — the statement holds over any element type, and for a stack of any
  number of images (the whole batch of 256, or a block of 8 of them).
-/
import Idealize.ShloMosaic.PureOps.Ideal
import Idealize.ShloMosaic.Lib.ValueIdx

noncomputable section

namespace Cert.PatchSwap

open Idealize.ShloMosaic Idealize.ShloMosaic.ValueIdx

/-- A stack of `n` images of 3 planes of 224 x 224 pixels. -/
abbrev Img (n : Nat) : Shape := ⟨4, ![n, 3, 224, 224]⟩

/-- A patch index (0 to 13) lies strictly inside the middle third of the 14 patches: 14/3 < p < 28/3. -/
def inner (p : Nat) : Prop := 5 ≤ p ∧ p ≤ 9

instance : DecidablePred inner := fun p => inferInstanceAs (Decidable (5 ≤ p ∧ p ≤ 9))

/-- The patch holding pixel (r, s) is kept in place: both of its patch indices are inner. -/
def keeps (r s : Nat) : Prop := inner (r / 16) ∧ inner (s / 16)

instance : ∀ r s, Decidable (keeps r s) := fun r s => inferInstanceAs (Decidable (inner (r / 16) ∧ inner (s / 16)))

/-- The keep square in pixels: rows and columns 80 to 159. -/
theorem keeps_iff (r s : Nat) : keeps r s ↔ (80 ≤ r ∧ r < 160) ∧ (80 ≤ s ∧ s < 160) := by
  unfold keeps inner; omega

/-- The row of the input pixel that lands at output pixel (r, s): in a transposed patch the patch's own first
    row plus the output's offset ALONG the row. -/
def srcRow (r s : Fin 224) : Fin 224 :=
  if keeps r.val s.val then r else ⟨r.val / 16 * 16 + s.val % 16, by omega⟩

/-- The column of the input pixel that lands at output pixel (r, s). -/
def srcCol (r s : Fin 224) : Fin 224 :=
  if keeps r.val s.val then s else ⟨s.val / 16 * 16 + r.val % 16, by omega⟩

theorem srcRow_keeps {r s : Fin 224} (h : keeps r.val s.val) : srcRow r s = r := if_pos h
theorem srcCol_keeps {r s : Fin 224} (h : keeps r.val s.val) : srcCol r s = s := if_pos h
theorem srcRow_swaps {r s : Fin 224} (h : ¬ keeps r.val s.val) : (srcRow r s).val = r.val / 16 * 16 + s.val % 16 := by
  unfold srcRow; rw [if_neg h]
theorem srcCol_swaps {r s : Fin 224} (h : ¬ keeps r.val s.val) : (srcCol r s).val = s.val / 16 * 16 + r.val % 16 := by
  unfold srcCol; rw [if_neg h]

/-- The whole result as a function of the whole input, index by index. -/
def G {n : Nat} {α : Type} (x : (Img n).Idx → α) : (Img n).Idx → α :=
  fun i => x (ix4 (i 0) (i 1) (srcRow (i 2) (i 3)) (srcCol (i 2) (i 3)))

theorem G_ix4 {n : Nat} {α : Type} (x : (Img n).Idx → α) (b : Fin n) (c : Fin 3) (r s : Fin 224) :
    G x (ix4 b c r s) = x (ix4 b c (srcRow r s) (srcCol r s)) := rfl

end Cert.PatchSwap

end
-- ==== Proof.KernelPieces.lean ====
/-
  The two kinds of piece the kernel's body stores, each as a tile of the specification.

  The body works on a block of 8 images. It stores the 80 x 80 keep square of every plane as loaded, and for each
  of the 171 patches outside the keep square it stores the loaded 16 x 16 patch with its last two axes
  exchanged. Read at a position (a, b, p, q) inside the stored rectangle, at offset (0, 0, R, S) in the block:

  * the keep square holds input pixel (R + p, S + q), and that pixel lies in a kept patch, where the
    specification's source pixel is the pixel itself;
  * an exchanged patch holds input pixel (R + q, S + p); since R and S are multiples of 16 and p, q < 16, the
    output pixel (R + p, S + q) lies in the patch with corner (R, S), which is not kept, and the specification's
    source pixel there is (R + q, S + p): the patch's own corner plus the exchanged offsets.
-/
import Idealize.ShloMosaic.Lib.Pipeline.Value
import Idealize.ShloMosaic.Lib.Pipeline.FrameBody
import proofs.«149195_j64433099374843_2_alg».proof.Proof.Spec

noncomputable section

namespace Cert.PatchSwap

open Idealize.ShloMosaic Idealize.ShloMosaic.ValueIdx

/-- One patch of every plane of a block of 8 images. -/
abbrev Tile : Shape := ⟨4, ![8, 3, 16, 16]⟩
/-- The keep square of every plane of a block of 8 images. -/
abbrev Core : Shape := ⟨4, ![8, 3, 80, 80]⟩

variable {Val : EltTy → Type} {e : EltTy}

/-- A loaded patch outside the keep square, its last two axes exchanged, is the specification's tile at the
    patch's rectangle. -/
theorem tile_swapped (X : (Img 8).Idx → Val e) (off : Fin 4 → Nat) (inb : ∀ a, off a + Tile.size a ≤ (Img 8).size a)
    (tr : Tile.Transposes [0, 1, 3, 2] Tile)
    (h2 : off 2 % 16 = 0) (h3 : off 3 % 16 = 0) (hk : ¬ keeps (off 2) (off 3))
    (x : (Rect.unit (s := Img 8) off Tile.size inb).shape.Idx) :
    transpose Tile [0, 1, 3, 2] (View.ld X (Rect.unit (s := Img 8) off Tile.size inb)) tr x
      = G X ((Rect.unit (s := Img 8) off Tile.size inb).emb x) := by
  refine (transpose_apply [0, 1, 3, 2] _ tr x (ix4 (x 0) (x 1) (x 3) (x 2)) ?_).trans ?_
  · intro a
    match a with
    | ⟨0, _⟩ => rfl | ⟨1, _⟩ => rfl | ⟨2, _⟩ => rfl | ⟨3, _⟩ => rfl
  have hp : (x 2).val < 16 := (x 2).isLt
  have hq : (x 3).val < 16 := (x 3).isLt
  have e0 : (((Rect.unit (s := Img 8) off Tile.size inb).emb x) 0).val = off 0 + 1 * (x 0).val := rfl
  have e1 : (((Rect.unit (s := Img 8) off Tile.size inb).emb x) 1).val = off 1 + 1 * (x 1).val := rfl
  have e2 : (((Rect.unit (s := Img 8) off Tile.size inb).emb x) 2).val = off 2 + 1 * (x 2).val := rfl
  have e3 : (((Rect.unit (s := Img 8) off Tile.size inb).emb x) 3).val = off 3 + 1 * (x 3).val := rfl
  generalize (Rect.unit (s := Img 8) off Tile.size inb).emb x = i at e0 e1 e2 e3 ⊢
  have hk' : ¬ keeps (i 2).val (i 3).val := by
    unfold keeps at hk ⊢
    rw [e2, e3, show (off 2 + 1 * (x 2).val) / 16 = off 2 / 16 by omega,
      show (off 3 + 1 * (x 3).val) / 16 = off 3 / 16 by omega]
    exact hk
  show X ((Rect.unit (s := Img 8) off Tile.size inb).idx (ix4 (x 0) (x 1) (x 3) (x 2)))
    = X (ix4 (i 0) (i 1) (srcRow (i 2) (i 3)) (srcCol (i 2) (i 3)))
  refine congrArg X (funext fun a => Fin.ext ?_)
  match a with
  | ⟨0, _⟩ => show off 0 + 1 * (x 0).val = (i 0).val; omega
  | ⟨1, _⟩ => show off 1 + 1 * (x 1).val = (i 1).val; omega
  | ⟨2, _⟩ =>
    show off 2 + 1 * (x 3).val = (srcRow (i 2) (i 3)).val
    rw [srcRow_swaps hk']; omega
  | ⟨3, _⟩ =>
    show off 3 + 1 * (x 2).val = (srcCol (i 2) (i 3)).val
    rw [srcCol_swaps hk']; omega

/-- The loaded keep square is the specification's tile at the keep square's rectangle. -/
theorem core_kept (X : (Img 8).Idx → Val e) (off : Fin 4 → Nat) (inb : ∀ a, off a + Core.size a ≤ (Img 8).size a)
    (h2 : off 2 = 80) (h3 : off 3 = 80)
    (x : (Rect.unit (s := Img 8) off Core.size inb).shape.Idx) :
    View.ld X (Rect.unit (s := Img 8) off Core.size inb) x
      = G X ((Rect.unit (s := Img 8) off Core.size inb).emb x) := by
  have hp : (x 2).val < 80 := (x 2).isLt
  have hq : (x 3).val < 80 := (x 3).isLt
  have e2 : (((Rect.unit (s := Img 8) off Core.size inb).emb x) 2).val = off 2 + 1 * (x 2).val := rfl
  have e3 : (((Rect.unit (s := Img 8) off Core.size inb).emb x) 3).val = off 3 + 1 * (x 3).val := rfl
  show X ((Rect.unit (s := Img 8) off Core.size inb).emb x) = _
  generalize (Rect.unit (s := Img 8) off Core.size inb).emb x = i at e2 e3 ⊢
  have hk : keeps (i 2).val (i 3).val := by rw [keeps_iff]; omega
  show X i = X (ix4 (i 0) (i 1) (srcRow (i 2) (i 3)) (srcCol (i 2) (i 3)))
  rw [srcRow_keeps hk, srcCol_keeps hk]
  exact congrArg X (eq_ix4 i)

end Cert.PatchSwap

end
-- ==== Proof.KernelBlock.lean ====
/-
  What the kernel's body leaves in the output block: the specification applied to the input block.

  The body's 172 stores write rectangles that tile the block of 8 images: the keep square of every plane, stored
  as loaded, and the 171 patches around it, each stored with its last two axes exchanged. Every one of these
  pieces is the tile of ONE function of the block index — the specification `G` of the loaded input block — at
  its own rectangle (the two lemmas on pieces), and the pieces cover the block. So the block read back after the
  body is `G` of the input block, whatever the order of the stores.
-/
import proofs.«149195_j64433099374843_2_alg».proof.Proof.Gen.KernelIdeal.Frame
import proofs.«149195_j64433099374843_2_alg».proof.Proof.KernelPieces

set_option maxRecDepth 16384

noncomputable section

namespace Cert.KernelIdeal.BlockValue

open Cert.KernelIdeal Cert.KernelIdeal.Gen Idealize.ShloMosaic Idealize.ShloMosaic.TcCoe Idealize.ShloMosaic.Tactic
open Cert.PatchSwap

variable {F : FTy → Type} [FloatOps F]

/-- The output block after the body, on any staging buffers and at any grid point, is `G` of the input block. -/
theorem out_eq (c : Dev nD) (i : grid0.Coords) (arg1 : Memref sig .tc .vmem S8x3x224x224 .f32) (harg1 : arg1.IsWhole)
    (arg2 : Memref sig .tc .vmem S8x3x224x224 .f32) (harg2 : arg2.IsWhole) (x0 : Vec F S8x3x224x224 .f32) :
    out0_A_1 c i arg1 harg1 arg2 harg2 x0 = G (n := 8) x0 := by
  unfold out0_A_1
  rw [View.read_writes_eq_canon _ _ _ (cover0_A_1 c i arg1 harg1 arg2 harg2 x0)]
  funext y
  refine View.canon_apply_of_pieces (G (n := 8) x0) _ ?_ y (cover0_A_1 c i arg1 harg1 arg2 harg2 x0 y)
  unfold kernelRun0_A
  dsimp only
  sl_unfold_words
  simp only [View.readAt_eq_ld, harg1.read_unread]
  repeat' (first | exact List.forall_mem_nil _ | refine List.forall_mem_cons.2 ⟨?_, ?_⟩)
  all_goals
    intro x
    first
      | exact tile_swapped x0 _ _ _ (by decide) (by decide) (by decide) x
      | exact core_kept x0 _ _ rfl rfl x

end Cert.KernelIdeal.BlockValue

end
-- ==== Proof.KernelArray.lean ====
/-
  From blocks to the array: after the kernel's run its result array is the specification of its argument.

  The 32 grid points each take a block of 8 images: the block of point t is the images 8 t to 8 t + 7 of the
  array, whole in every other axis, for the input window and the output window alike. The specification moves
  pixels only inside a plane and never across images, so the specification of a block of the input IS the same
  block of the specification of the whole input: what point t writes back is block t of ONE whole-array function
  of the argument. The 32 blocks cover the array (image i lies in the block of point i / 8), so the array ends
  at that function, and the argument is not written.
-/
import proofs.«149195_j64433099374843_2_alg».proof.Proof.Gen.KernelIdeal.Value
import proofs.«149195_j64433099374843_2_alg».proof.Proof.KernelBlock

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.PatchSwap

variable {F : FTy → Type} [FloatOps F]
variable (m : (ℓ : Loc nD τ sig) → Buf (Elt F) ℓ) (ρ : Dev nD → PrngReg)

/-- The two windows' block indices at every grid point: the point's number on the image axis, zero elsewhere. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- WHAT POINT `t` WRITES BACK is block `t` of the specification of the whole argument array. -/
theorem flushed_eq (c : Dev nD) (t : Fin cfg0.N) :
    (dats m 0 c).flushed 1 t
      = ((cfg0.win 1).blk t).view.read (Elt F) (G (n := 256) (α := Elt F .f32) (V m c main_arg0)) := by
  rw [Value.flushed1_A, BlockValue.out_eq]
  obtain ⟨a0, a1, a2, a3, b0, b1, b2, b3⟩ := idx_facts t
  funext j
  show V m c main_arg0 (((cfg0.win 0).blk t).view.emb (ix4 (j 0) (j 1) (srcRow (j 2) (j 3)) (srcCol (j 2) (j 3))))
    = G (n := 256) (α := Elt F .f32) (V m c main_arg0) (((cfg0.win 1).blk t).view.emb j)
  have f0 : ((((cfg0.win 1).blk t).view.emb j) 0).val = win0_1.index t (0 : Fin 4) * 8 + 1 * (j 0).val := rfl
  have f1 : ((((cfg0.win 1).blk t).view.emb j) 1).val = win0_1.index t (1 : Fin 4) * 3 + 1 * (j 1).val := rfl
  have f2 : ((((cfg0.win 1).blk t).view.emb j) 2).val = win0_1.index t (2 : Fin 4) * 224 + 1 * (j 2).val := rfl
  have f3 : ((((cfg0.win 1).blk t).view.emb j) 3).val = win0_1.index t (3 : Fin 4) * 224 + 1 * (j 3).val := rfl
  generalize ((cfg0.win 1).blk t).view.emb j = e at f0 f1 f2 f3 ⊢
  have e2 : (e 2 : Fin 224) = j 2 := Fin.ext (by omega)
  have e3 : (e 3 : Fin 224) = j 3 := Fin.ext (by omega)
  show _ = V m c main_arg0 (ix4 (e 0) (e 1) (srcRow (e 2) (e 3)) (srcCol (e 2) (e 3)))
  rw [e2, e3]
  refine congrArg (V m c main_arg0) (funext fun a => Fin.ext ?_)
  match a with
  | ⟨0, _⟩ => show win0_0.index t (0 : Fin 4) * 8 + 1 * (j 0).val = (e 0).val; omega
  | ⟨1, _⟩ => show win0_0.index t (1 : Fin 4) * 3 + 1 * (j 1).val = (e 1).val; omega
  | ⟨2, _⟩ => show win0_0.index t (2 : Fin 4) * 224 + 1 * (srcRow (j 2) (j 3)).val = (srcRow (j 2) (j 3)).val; omega
  | ⟨3, _⟩ => show win0_0.index t (3 : Fin 4) * 224 + 1 * (srcCol (j 2) (j 3)).val = (srcCol (j 2) (j 3)).val; omega

/-- An index of the array is in point `t`'s block iff each coordinate is in the block's range on its axis. -/
theorem mem_blk (t : Fin cfg0.N) (i : S256x3x224x224.Idx) :
    i ∈ ((cfg0.win 1).blk t).view.set ↔ ∀ a : Fin 4, win0_1.index t a * S8x3x224x224.size a ≤ (i a).val
      ∧ (i a).val < win0_1.index t a * S8x3x224x224.size a + S8x3x224x224.size a := by
  show i ∈ ((View.whole main_v0).slice (win0_1.rect t)).set ↔ _
  rw [View.set_slice_whole, Rect.mem_set_unit]
  exact Iff.rfl

/-- The blocks cover the array: image `i` lies in the block of point `i / 8`. -/
theorem cover (i : S256x3x224x224.Idx) :
    ∃ t : Fin cfg0.N, (cfg0.win 1).flush t = true ∧ i ∈ ((cfg0.win 1).blk t).view.set := by
  have hi0 : (i 0).val < 256 := (i 0).isLt
  have hi1 : (i 1).val < 3 := (i 1).isLt
  have hi2 : (i 2).val < 224 := (i 2).isLt
  have hi3 : (i 3).val < 224 := (i 3).isLt
  have hN : (i 0).val / 8 < cfg0.N := by show _ < grid0.N; rw [N_0]; omega
  obtain ⟨-, -, -, -, b0, b1, b2, b3⟩ := idx_facts ⟨(i 0).val / 8, hN⟩
  have tv : ((⟨(i 0).val / 8, hN⟩ : Fin cfg0.N)).val = (i 0).val / 8 := rfl
  refine ⟨⟨(i 0).val / 8, hN⟩, flush0_1 _, ?_⟩
  rw [mem_blk]
  intro a
  match a with
  | ⟨0, _⟩ =>
    show win0_1.index ⟨(i 0).val / 8, hN⟩ (0 : Fin 4) * 8 ≤ (i 0).val
      ∧ (i 0).val < win0_1.index ⟨(i 0).val / 8, hN⟩ (0 : Fin 4) * 8 + 8
    omega
  | ⟨1, _⟩ =>
    show win0_1.index ⟨(i 0).val / 8, hN⟩ (1 : Fin 4) * 3 ≤ (i 1).val
      ∧ (i 1).val < win0_1.index ⟨(i 0).val / 8, hN⟩ (1 : Fin 4) * 3 + 3
    omega
  | ⟨2, _⟩ =>
    show win0_1.index ⟨(i 0).val / 8, hN⟩ (2 : Fin 4) * 224 ≤ (i 2).val
      ∧ (i 2).val < win0_1.index ⟨(i 0).val / 8, hN⟩ (2 : Fin 4) * 224 + 224
    omega
  | ⟨3, _⟩ =>
    show win0_1.index ⟨(i 0).val / 8, hN⟩ (3 : Fin 4) * 224 ≤ (i 3).val
      ∧ (i 3).val < win0_1.index ⟨(i 0).val / 8, hN⟩ (3 : Fin 4) * 224 + 224
    omega

/-- THE ARRAY after the run: the specification of the argument array. -/
theorem final (c : Dev nD) :
    (dats m 0 c).arrAt 1 cfg0.N = G (n := 256) (α := Elt F .f32) (m ((c : Thread nD τ).loc main_arg0)) :=
  (dats m 0 c).arrAt_eq_of_cover 1 _ (fun t _ => flushed_eq m c t) cover

/-- The kernel's run re-posted: the result array at the specification of the argument, the argument unchanged. -/
theorem run : θ_run defs (onTc (τ := τ) (main (F := F))) ⟨m, fun _ => 0, ρ⟩ fun r => ∀ c : Dev nD,
      r.2.mem ((c : Thread nD τ).loc main_v0) = G (n := 256) (α := Elt F .f32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.RefLayout.lean ====
/-
  The reference's chain of layout operations read at one index.

  The reference cuts each 224 x 224 plane into its 14 x 14 patches by a reshape to rank six,
  (b, c, h, p, w, q) with row 16 h + p and column 16 w + q; moves the axes to (b, w, h, p, q, c); makes a second
  copy with the two in-patch axes p and q exchanged; selects between the two copies by a 14 x 14 table of
  one-bit words read at (w, h) and broadcast over every other axis; and moves the axes back and flattens. Read
  at the output pixel (16 h + p, 16 w + q) of plane (b, c) the chain is therefore a choice, by the table's word
  at (w, h), between input pixel (16 h + q, 16 w + p) and input pixel (16 h + p, 16 w + q) of the same plane.
  Nothing here depends on the element type or on the table's contents.
-/
import Idealize.ShloMosaic.Lib.Pipeline.Value
import Idealize.ShloMosaic.Lib.ValueIdx
import Idealize.ShloMosaic.Lib.ValueIdxRank6

noncomputable section

namespace Cert.PatchSwap.RefLayout

open Idealize.ShloMosaic Idealize.ShloMosaic.ValueIdx

/-- The batch of images. -/
abbrev Img4 : Shape := ⟨4, ![256, 3, 224, 224]⟩
/-- The same elements with each plane cut into patches: (b, c, h, p, w, q). -/
abbrev Cut6 : Shape := ⟨6, ![256, 3, 14, 16, 14, 16]⟩
/-- Patches in front, channels last: (b, w, h, p, q, c). -/
abbrev Pat6 : Shape := ⟨6, ![256, 14, 14, 16, 16, 3]⟩
/-- The table with unit axes around it: (1, w, h, 1, 1, 1). -/
abbrev Msk6 : Shape := ⟨6, ![1, 14, 14, 1, 1, 1]⟩
/-- The table: (w, h). -/
abbrev Msk2 : Shape := ⟨2, ![14, 14]⟩

variable {α : Type}

/-- Flattening (b, c, h, p, w, q) gives pixel (16 h + p, 16 w + q) of plane (b, c): the two row-major positions agree. -/
theorem pos_cut (b : Fin 256) (c : Fin 3) (h : Fin 14) (p : Fin 16) (w : Fin 14) (q : Fin 16)
    (r s : Fin 224) (hr : r.val = h.val * 16 + p.val) (hs : s.val = w.val * 16 + q.val) :
    (Cut6.rowMajor (ix6 b c h p w q)).val = (Img4.rowMajor (ix4 b c r s)).val := by
  rw [Shape.rowMajor_val_six, Shape.rowMajor_val_four]
  show ((((b.val * 3 + c.val) * 14 + h.val) * 16 + p.val) * 14 + w.val) * 16 + q.val
    = ((b.val * 3 + c.val) * 224 + r.val) * 224 + s.val
  omega

/-- The patch view (b, w, h, p, q, c) of the input is input pixel (16 h + p, 16 w + q) of plane (b, c). -/
theorem patches_apply (x : Img4.Idx → α) (sc1 : Img4.ShapeCasts Cut6) (tr1 : Cut6.Transposes [0, 4, 2, 3, 5, 1] Pat6)
    (b : Fin 256) (c : Fin 3) (h : Fin 14) (p : Fin 16) (w : Fin 14) (q : Fin 16)
    (r s : Fin 224) (hr : r.val = h.val * 16 + p.val) (hs : s.val = w.val * 16 + q.val) :
    transpose Pat6 [0, 4, 2, 3, 5, 1] (shapeCast Cut6 x sc1) tr1 (ix6 b w h p q c) = x (ix4 b c r s) := by
  refine (transpose_apply [0, 4, 2, 3, 5, 1] _ tr1 (ix6 b w h p q c) (ix6 b c h p w q) ?_).trans ?_
  · intro a
    match a with
    | ⟨0, _⟩ => rfl | ⟨1, _⟩ => rfl | ⟨2, _⟩ => rfl | ⟨3, _⟩ => rfl | ⟨4, _⟩ => rfl | ⟨5, _⟩ => rfl
  · exact shapeCast_apply x sc1 (ix6 b c h p w q) (ix4 b c r s) (pos_cut b c h p w q r s hr hs).symm

/-- The table broadcast over every other axis, read at (b, w, h, p, q, c), is the table at (w, h). -/
theorem table_apply (msk : Msk2.Idx → BitVec 1)
    (bc1 : Msk2.BroadcastsInDim Msk6 (![1, 2] : Fin 2 → Fin Msk6.rank))
    (bc2 : Msk6.BroadcastsInDim Pat6 (![0, 1, 2, 3, 4, 5] : Fin 6 → Fin Pat6.rank))
    (b : Fin 256) (c : Fin 3) (h : Fin 14) (p : Fin 16) (w : Fin 14) (q : Fin 16) :
    broadcastInDim Pat6 ![0, 1, 2, 3, 4, 5] bc2 (broadcastInDim Msk6 ![1, 2] bc1 msk) (ix6 b w h p q c) = msk (ix2 w h) := by
  refine (broadcastInDim_apply _ bc2 _ (ix6 b w h p q c) (ix6 (0 : Fin 1) w h (0 : Fin 1) (0 : Fin 1) (0 : Fin 1)) ?_).trans ?_
  · intro a
    match a with
    | ⟨0, _⟩ => rfl | ⟨1, _⟩ => rfl | ⟨2, _⟩ => rfl | ⟨3, _⟩ => rfl | ⟨4, _⟩ => rfl | ⟨5, _⟩ => rfl
  · refine broadcastInDim_apply _ bc1 msk _ (ix2 w h) ?_
    intro a
    match a with
    | ⟨0, _⟩ => rfl | ⟨1, _⟩ => rfl

/-- THE CHAIN AT A PIXEL: the word of the table at (w, h) chooses between the in-patch transposed input pixel
    and the input pixel itself. -/
theorem chain_apply (x : Img4.Idx → α) (msk : Msk2.Idx → BitVec 1)
    (sc1 : Img4.ShapeCasts Cut6) (tr1 : Cut6.Transposes [0, 4, 2, 3, 5, 1] Pat6)
    (tr2 : Pat6.Transposes [0, 1, 2, 4, 3, 5] Pat6)
    (bc1 : Msk2.BroadcastsInDim Msk6 (![1, 2] : Fin 2 → Fin Msk6.rank))
    (bc2 : Msk6.BroadcastsInDim Pat6 (![0, 1, 2, 3, 4, 5] : Fin 6 → Fin Pat6.rank))
    (tr3 : Pat6.Transposes [0, 5, 2, 3, 1, 4] Cut6) (sc2 : Cut6.ShapeCasts Img4)
    (b : Fin 256) (c : Fin 3) (h : Fin 14) (p : Fin 16) (w : Fin 14) (q : Fin 16)
    (r s r' s' : Fin 224) (hr : r.val = h.val * 16 + p.val) (hs : s.val = w.val * 16 + q.val)
    (hr' : r'.val = h.val * 16 + q.val) (hs' : s'.val = w.val * 16 + p.val) :
    shapeCast Img4
        (transpose Cut6 [0, 5, 2, 3, 1, 4]
          (select (broadcastInDim Pat6 ![0, 1, 2, 3, 4, 5] bc2 (broadcastInDim Msk6 ![1, 2] bc1 msk))
            (transpose Pat6 [0, 1, 2, 4, 3, 5] (transpose Pat6 [0, 4, 2, 3, 5, 1] (shapeCast Cut6 x sc1) tr1) tr2)
            (transpose Pat6 [0, 4, 2, 3, 5, 1] (shapeCast Cut6 x sc1) tr1))
          tr3)
        sc2 (ix4 b c r s)
      = Scalar.select (msk (ix2 w h)) (x (ix4 b c r' s')) (x (ix4 b c r s)) := by
  refine (shapeCast_apply _ sc2 (ix4 b c r s) (ix6 b c h p w q) (pos_cut b c h p w q r s hr hs)).trans ?_
  refine (transpose_apply [0, 5, 2, 3, 1, 4] _ tr3 (ix6 b c h p w q) (ix6 b w h p q c) ?_).trans ?_
  · intro a
    match a with
    | ⟨0, _⟩ => rfl | ⟨1, _⟩ => rfl | ⟨2, _⟩ => rfl | ⟨3, _⟩ => rfl | ⟨4, _⟩ => rfl | ⟨5, _⟩ => rfl
  have e1 := table_apply msk bc1 bc2 b c h p w q
  have e3 := patches_apply x sc1 tr1 b c h p w q r s hr hs
  have e2 : transpose Pat6 [0, 1, 2, 4, 3, 5] (transpose Pat6 [0, 4, 2, 3, 5, 1] (shapeCast Cut6 x sc1) tr1) tr2 (ix6 b w h p q c)
      = x (ix4 b c r' s') := by
    refine (transpose_apply [0, 1, 2, 4, 3, 5] _ tr2 (ix6 b w h p q c) (ix6 b w h q p c) ?_).trans ?_
    · intro a
      match a with
      | ⟨0, _⟩ => rfl | ⟨1, _⟩ => rfl | ⟨2, _⟩ => rfl | ⟨3, _⟩ => rfl | ⟨4, _⟩ => rfl | ⟨5, _⟩ => rfl
    · exact patches_apply x sc1 tr1 b c h q w p r' s' hr' hs'
  show Scalar.select (broadcastInDim Pat6 ![0, 1, 2, 3, 4, 5] bc2 (broadcastInDim Msk6 ![1, 2] bc1 msk) (ix6 b w h p q c))
      (transpose Pat6 [0, 1, 2, 4, 3, 5] (transpose Pat6 [0, 4, 2, 3, 5, 1] (shapeCast Cut6 x sc1) tr1) tr2 (ix6 b w h p q c))
      (transpose Pat6 [0, 4, 2, 3, 5, 1] (shapeCast Cut6 x sc1) tr1 (ix6 b w h p q c)) = _
  rw [e1, e2, e3]

end Cert.PatchSwap.RefLayout

end
-- ==== Proof.RefValue.lean ====
/-
  The reference's result, as one term of its argument, is the specification.

  The reference's table of one-bit words is 1 at patch (w, h) unless both indices are inner (5 to 9), where it
  is 0: a patch is transposed exactly when it is not kept. With the chain of layout operations read at a pixel
  (the choice, by the table's word at the pixel's patch, between the in-patch transposed input pixel and the
  input pixel itself) this makes the reference's result the specification's gather, pixel by pixel:
  in a kept patch the word is 0 and the pixel itself is chosen; elsewhere the word is 1 and the chosen pixel
  (16 h + q, 16 w + p) is the patch's corner plus the exchanged offsets, the specification's source pixel.
-/
import proofs.«149195_j64433099374843_2_alg».proof.Proof.Gen.ReferenceIdeal
import proofs.«149195_j64433099374843_2_alg».proof.Proof.RefLayout
import proofs.«149195_j64433099374843_2_alg».proof.Proof.Spec

noncomputable section

namespace Cert.ReferenceIdeal.RefValue

open Cert.ReferenceIdeal Cert.ReferenceIdeal.Gen Idealize.ShloMosaic Idealize.ShloMosaic.ValueIdx
open Cert.PatchSwap

/-- The reference's table, indexed (w, h): the printed literal read in row-major order. -/
def table : S14x14.Idx → BitVec 1 := fun i => lit0 (S14x14.rowMajor i)

/-- The literal, entry by entry: 0 exactly where both patch indices are inner. -/
theorem lit0_eq : ∀ n : Fin 196, lit0 n = if inner (n.val / 14) ∧ inner (n.val % 14) then 0#1 else 1#1 := by
  decide

/-- The literal at row-major position 14 w + h. -/
theorem lit0_at (n : Fin 196) (w h : Nat) (hw : w < 14) (hh : h < 14) (hn : n.val = w * 14 + h) :
    lit0 n = if inner w ∧ inner h then 0#1 else 1#1 := by
  rw [lit0_eq, show n.val / 14 = w by omega, show n.val % 14 = h by omega]

/-- The table at patch (w, h). -/
theorem table_at (w h : Fin 14) : table (ix2 w h) = if inner w.val ∧ inner h.val then 0#1 else 1#1 :=
  lit0_at _ w.val h.val w.isLt h.isLt (by rw [Shape.rowMajor_val_two]; rfl)

variable {α : Type}

/-- The reference's operations composed: cut into patches, the copy with the in-patch axes exchanged, the select
    by the broadcast table, and back. -/
def refOut (x : S256x3x224x224.Idx → α) : S256x3x224x224.Idx → α :=
  shapeCast S256x3x224x224
    (transpose S256x3x14x16x14x16 [0, 5, 2, 3, 1, 4]
      (select
        (broadcastInDim S256x14x14x16x16x3 ![0, 1, 2, 3, 4, 5] bcast_S1x14x14x1x1x1_S256x14x14x16x16x3_0_1_2_3_4_5
          (broadcastInDim S1x14x14x1x1x1 ![1, 2] bcast_S14x14_S1x14x14x1x1x1_1_2 table))
        (transpose S256x14x14x16x16x3 [0, 1, 2, 4, 3, 5]
          (transpose S256x14x14x16x16x3 [0, 4, 2, 3, 5, 1]
            (shapeCast S256x3x14x16x14x16 x shapeCasts_S256x3x224x224_S256x3x14x16x14x16)
            transposes_S256x3x14x16x14x16_S256x14x14x16x16x3_0_4_2_3_5_1)
          transposes_S256x14x14x16x16x3_S256x14x14x16x16x3_0_1_2_4_3_5)
        (transpose S256x14x14x16x16x3 [0, 4, 2, 3, 5, 1]
          (shapeCast S256x3x14x16x14x16 x shapeCasts_S256x3x224x224_S256x3x14x16x14x16)
          transposes_S256x3x14x16x14x16_S256x14x14x16x16x3_0_4_2_3_5_1))
      transposes_S256x14x14x16x16x3_S256x3x14x16x14x16_0_5_2_3_1_4)
    shapeCasts_S256x3x14x16x14x16_S256x3x224x224

/-- The reference's term is the specification. -/
theorem refOut_eq (x : S256x3x224x224.Idx → α) : refOut x = G (n := 256) x := by
  funext i
  obtain ⟨b, c, r, s, rfl⟩ : ∃ (b : Fin 256) (c : Fin 3) (r s : Fin 224), i = ix4 b c r s :=
    ⟨i 0, i 1, i 2, i 3, eq_ix4 i⟩
  unfold refOut
  refine (RefLayout.chain_apply x table _ _ _ _ _ _ _ b c
    ⟨r.val / 16, by omega⟩ ⟨r.val % 16, by omega⟩ ⟨s.val / 16, by omega⟩ ⟨s.val % 16, by omega⟩
    r s ⟨r.val / 16 * 16 + s.val % 16, by omega⟩ ⟨s.val / 16 * 16 + r.val % 16, by omega⟩
    (by show r.val = r.val / 16 * 16 + r.val % 16; omega) (by show s.val = s.val / 16 * 16 + s.val % 16; omega)
    rfl rfl).trans ?_
  rw [table_at, G_ix4]
  by_cases hk : keeps r.val s.val
  · rw [srcRow_keeps hk, srcCol_keeps hk, if_pos (show inner (s.val / 16) ∧ inner (r.val / 16) from ⟨hk.2, hk.1⟩)]
    rfl
  · rw [if_neg (show ¬ (inner (s.val / 16) ∧ inner (r.val / 16)) from fun h => hk ⟨h.2, h.1⟩)]
    have er : srcRow r s = ⟨r.val / 16 * 16 + s.val % 16, by omega⟩ := Fin.ext (srcRow_swaps hk)
    have ec : srcCol r s = ⟨s.val / 16 * 16 + r.val % 16, by omega⟩ := Fin.ext (srcCol_swaps hk)
    rw [er, ec]
    rfl

end Cert.ReferenceIdeal.RefValue

end
-- ==== Proof.RefRun.lean ====
/-
  The reference program's run, read back.

  The reference is a straight line of nine operations: the table constant, the reshape that cuts the planes into
  patches, two transposes (patches in front; the copy with the in-patch axes exchanged), the table's two
  broadcasts, the select — the last broadcast and the select being the body of the function the program calls,
  run on the call's own buffers —, and the transpose and reshape back. Every weakly fair execution runs them in
  order, so the result buffer ends at their composed term of the argument, which is the specification, and the
  argument is never written.
-/
import proofs.«149195_j64433099374843_2_alg».proof.Proof.Gen.ReferenceIdeal
import proofs.«149195_j64433099374843_2_alg».proof.Proof.RefValue
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo Cert.PatchSwap

variable {F : FTy → Type} [FloatOps F]

/-- The program's nine operations in order, the called function's two at its call site on the call's buffers. -/
abbrev ops : List (HloOp τ sig (Elt F)) :=
  [ nullary main_c (fun i => lit0 (S14x14.rowMajor i)),
    reshape main_arg0 main_v0 rfl shapeCasts_S256x3x224x224_S256x3x14x16x14x16,
    unary main_v0 main_v1 ((transpose S256x14x14x16x16x3 [0, 4, 2, 3, 5, 1] · transposes_S256x3x14x16x14x16_S256x14x14x16x16x3_0_4_2_3_5_1) : (⟨S256x3x14x16x14x16, .f32⟩ : BufTy).Contents (Elt F) → (⟨S256x14x14x16x16x3, .f32⟩ : BufTy).Contents (Elt F)),
    unary main_v1 main_v2 ((transpose S256x14x14x16x16x3 [0, 1, 2, 4, 3, 5] · transposes_S256x14x14x16x16x3_S256x14x14x16x16x3_0_1_2_4_3_5) : (⟨S256x14x14x16x16x3, .f32⟩ : BufTy).Contents (Elt F) → (⟨S256x14x14x16x16x3, .f32⟩ : BufTy).Contents (Elt F)),
    unary main_c main_v3 (broadcastInDim S1x14x14x1x1x1 ![1, 2] bcast_S14x14_S1x14x14x1x1x1_1_2 : (⟨S14x14, .i1⟩ : BufTy).Contents (Elt F) → (⟨S1x14x14x1x1x1, .i1⟩ : BufTy).Contents (Elt F)),
    TRef.unary (.of main_v3 : TRef sig ⟨S1x14x14x1x1x1, .i1⟩) main_call0.v0 (broadcastInDim S256x14x14x16x16x3 ![0, 1, 2, 3, 4, 5] bcast_S1x14x14x1x1x1_S256x14x14x16x16x3_0_1_2_3_4_5 : (⟨S1x14x14x1x1x1, .i1⟩ : BufTy).Contents (Elt F) → (⟨S256x14x14x16x16x3, .i1⟩ : BufTy).Contents (Elt F)),
    TRef.ternary main_call0.v0 (.of main_v2 : TRef sig ⟨S256x14x14x16x16x3, .f32⟩) (.of main_v1 : TRef sig ⟨S256x14x14x16x16x3, .f32⟩) main_call0.v1 (select : (⟨S256x14x14x16x16x3, .i1⟩ : BufTy).Contents (Elt F) → (⟨S256x14x14x16x16x3, .f32⟩ : BufTy).Contents (Elt F) → (⟨S256x14x14x16x16x3, .f32⟩ : BufTy).Contents (Elt F) → (⟨S256x14x14x16x16x3, .f32⟩ : BufTy).Contents (Elt F)),
    unary main_v4 main_v5 ((transpose S256x3x14x16x14x16 [0, 5, 2, 3, 1, 4] · transposes_S256x14x14x16x16x3_S256x3x14x16x14x16_0_5_2_3_1_4) : (⟨S256x14x14x16x16x3, .f32⟩ : BufTy).Contents (Elt F) → (⟨S256x3x14x16x14x16, .f32⟩ : BufTy).Contents (Elt F)),
    reshape main_v5 main_v6 rfl shapeCasts_S256x3x14x16x14x16_S256x3x224x224 ]

/-- The program is that straight line: the called function's body unfolded at its call and sequencing reassociated. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., unary_bufs_sub .., unary_bufs_sub .., unary_bufs_sub .., unary_bufs_sub ..,
    ternary_bufs_sub .., unary_bufs_sub .., reshape_bufs_sub ..⟩

/-- The fold of the nine operations at the result buffer is their composed term of the argument's contents. -/
theorem out_eq (V : Valuation τ sig (Elt F)) :
    after ops V (main_v6 : DevRef τ sig) = refOut (V (main_arg0 : DevRef τ sig)) := by
  after_results
  rfl

/-- No operation writes the argument. -/
theorem arg_eq (V : Valuation τ sig (Elt F)) :
    after ops V (main_arg0 : DevRef τ sig) = V (main_arg0 : DevRef τ sig) := by
  after_results

/-- On every device, from any memory with zero counters: every weakly fair execution of the reference terminates
    with its result at the specification of its argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = G (n := 256) (m ((c.tc : Thread nD τ).loc main_arg0))
      ∧ r.2.mem ((c.tc : Thread nD τ).loc main_arg0) = m ((c.tc : Thread nD τ).loc main_arg0) :=
  (θ_run defs _ _).mono (fun _ h c => ⟨(h c main_v6).trans ((out_eq _).trans (refOut_eq _)),
      (h c main_arg0).trans (arg_eq _)⟩)
    (run_seq scopedRefs_eq scopedSems_eq defs main (fun _ => ops) main_eq (fun _ => ops_sub) m ρ)

end Cert.ReferenceIdeal.RefValue

end
-- ==== Proof.lean ====
/-
  The kernel transposes, inside each plane of a batch of 256 x 3 planes of 224 x 224 pixels, every 16 x 16 patch
  of the 14 x 14 patch grid except the 5 x 5 patches strictly inside the middle third of both patch axes, which
  it copies; the reference does the same by cutting the planes into patches with a reshape, exchanging the two
  in-patch axes of a copy, and selecting between the copy and the original by a constant 14 x 14 table.

  Both results are ONE gather of the input, the specification `Cert.PatchSwap.G`: output pixel (r, s) of a plane
  is the input pixel of the same plane at (r, s) when the pixel's patch is kept, and at the patch's corner plus
  the exchanged in-patch offsets otherwise. No arithmetic touches an element, so the two sides agree on every
  extended real and the finiteness of the input is never used.

  * Kernel side: the body's 172 stores are tiles of the specification of the loaded block of 8 images
    (Proof/KernelPieces.lean, Proof/KernelBlock.lean); the 32 blocks are the blocks of the specification of the
    whole array and cover it (Proof/KernelArray.lean).
  * Reference side: its nine operations run in order (Proof/RefRun.lean), and their composed term read at a pixel
    is the choice the table makes at the pixel's patch, which is the specification (Proof/RefLayout.lean,
    Proof/RefValue.lean).
  * The idealization rewrote nothing, so there is nothing to preserve; the three frames are the runs with the
    results dropped.
-/
import proofs.«149195_j64433099374843_2_alg».proof.Defs
import proofs.«149195_j64433099374843_2_alg».proof.Proof.Gen.Kernel
import proofs.«149195_j64433099374843_2_alg».proof.Proof.Gen.Kernel.Skeleton
import proofs.«149195_j64433099374843_2_alg».proof.Proof.Gen.Kernel.Launch
import proofs.«149195_j64433099374843_2_alg».proof.Proof.Gen.Kernel.Points
import proofs.«149195_j64433099374843_2_alg».proof.Proof.Gen.Kernel.Frame
import proofs.«149195_j64433099374843_2_alg».proof.Proof.Gen.KernelIdeal
import proofs.«149195_j64433099374843_2_alg».proof.Proof.Gen.KernelIdeal.Skeleton
import proofs.«149195_j64433099374843_2_alg».proof.Proof.Gen.KernelIdeal.Launch
import proofs.«149195_j64433099374843_2_alg».proof.Proof.Gen.KernelIdeal.Points
import proofs.«149195_j64433099374843_2_alg».proof.Proof.Gen.KernelIdeal.Frame
import proofs.«149195_j64433099374843_2_alg».proof.Proof.Gen.KernelIdeal.Value
import proofs.«149195_j64433099374843_2_alg».proof.Proof.Gen.ReferenceIdeal
import proofs.«149195_j64433099374843_2_alg».proof.Proof.Gen.Pre_finite_inputs
import proofs.«149195_j64433099374843_2_alg».proof.Proof.KernelArray
import proofs.«149195_j64433099374843_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2)
    (Cert.ReferenceIdeal.RefValue.run (F := Ideal) m ρ)

/-- The idealization rewrote no operation. -/
theorem preserves : Cert.preserves_Kernel_KernelIdeal := trivial

/-- From memories agreeing on the argument, the kernel's result array and the reference's result are both the
    specification of that argument. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
